-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S3200000 32) (main_arg2 : IVec S3200000 32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3200000x64 : Shape := ⟨2, ![3200000, 64]⟩
abbrev S1x64 : Shape := ⟨2, ![1, 64]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .bf16⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x64, .bf16⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S1x64, .f32⟩
  | .hbm, ⟨47, _⟩ => ⟨S100000x64, .bf16⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .bf16⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S1x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S3200000x1_S3200000_n_0_0_1_wf : ScatterDims.WF S100000 S3200000x1 S3200000 [] [0] [0] 1
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S3200000, .f32⟩
  | .hbm, ⟨57, _⟩ => ⟨S_, .f32⟩
  | .hbm, ⟨58, _⟩ => ⟨S100000, .f32⟩
  | .hbm, ⟨59, _⟩ => ⟨S3200000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S3200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x64, .f32⟩
  | .hbm, ⟨90, _⟩ => ⟨S_, .f32⟩
  | .hbm, ⟨91, _⟩ => ⟨S100000x64, .f32⟩
  | .hbm, ⟨92, _⟩ => ⟨S3200000x1, .i32⟩
  | .hbm, ⟨93, _⟩ => ⟨S100000x64, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_15 : Ref sig .tc := ⟨.hbm, 81, rfl⟩
abbrev main_v55 : Ref sig .tc := ⟨.hbm, 82, rfl⟩
abbrev main_v56 : Ref sig .tc := ⟨.hbm, 83, rfl⟩
abbrev main_c_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
import proofs.«112397_j12412455486167_2_alg».proof.Proof.Gen.KernelIdeal.Frame

/-!
# The idealized kernel's run, with its result named

`@main` is three pipelined calls among stretches of host operations. Every weakly fair execution terminates, and
in the final state the result array holds what the last call's write-backs leave of it — the contents `W6` of the
last segment boundary, read at the result buffer — while the seven argument arrays are as launched.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of `@main` through its six segments: the result buffer ends at the last boundary's contents, each argument
    as launched. -/
theorem run_result : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Whole

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Project1.lean ====
import proofs.«112397_j12412455486167_2_alg».proof.Proof.Gen.KernelIdeal.Frame
import proofs.«112397_j12412455486167_2_alg».proof.Proof.LibMatmulRows
import proofs.«112397_j12412455486167_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# The first pipelined call: rows of the features against the first weight matrix, then scaled

The call walks the 100000 rows in 20 blocks of 5000. At a block it multiplies the block's rows `[5000, 128]` by the whole
weight matrix `[128, 64]` and scales row `p` of the product by the block's entry `p` of the column of source-degree
factors. Row `p` of block `t` is row `5000·t + p` of the arrays, the blocks tile the rows, and so the output array ends
holding, at `(r, q)`, `(∑ₖ x(r, k) · W(k, q)) · s(r, 0)`.
-/

set_option maxRecDepth 16384

noncomputable section

open scoped BigOperators

namespace Cert.KernelIdeal.Project1

open Cert.KernelIdeal Cert.KernelIdeal.Gen Idealize.ShloMosaic Idealize.ShloMosaic.TcCoe Idealize.SL.Sem
open Idealize.ShloMosaic.ValueIdx
open Idealize.ShloMosaic.Pipeline (Dat)

/-- Row `p` of `x` against column `q` of `W`, scaled by row `p`'s factor. -/
def rowsScaledAt (x : S100000x128.Idx → EReal) (s : S100000x1.Idx → EReal) (W : S128x64.Idx → EReal) (p : Fin 100000) (q : Fin 64) : EReal :=
  (∑ k : Fin 128, x (ix2 p k) * W (ix2 k q)) * s (ix2 p 0)

/-- The whole output array of the call, as a function of the three arrays it reads. -/
def rowsScaled (x : S100000x128.Idx → EReal) (s : S100000x1.Idx → EReal) (W : S128x64.Idx → EReal) : S100000x64.Idx → EReal :=
  fun i => rowsScaledAt x s W ⟨(i 0).val, idx2_lt0 i⟩ ⟨(i 1).val, idx2_lt1 i⟩

/-! ## The body's value at an entry of the block -/

theorem lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The stored value at `(p, q)` of the block: the contraction of row `p` of the loaded rows with column `q` of the
    weights (the changes of float format are the identity on the extended reals), times entry `p` of the loaded column. -/
theorem pay_apply (x0 : Vec Ideal S5000x128 .f32) (w : Vec Ideal S128x64 .f32) (s : Vec Ideal S5000x1 .f32) (p : Fin 5000) (q : Fin 64) :
    k0_pay1 x0 w s (ix2 p q) = (∑ k : Fin 128, x0 (ix2 p k) * w (ix2 k q)) * s (ix2 p 0) := by
  unfold k0_pay1
  show ((matmul (F := Ideal) dot_S5000x128_S128x64_S5000x64_1_0_0_1_n_n none (truncf .bf16 x0 bitsLt_bf16_f32) (truncf .bf16 w bitsLt_bf16_f32)
      (constant (F := Ideal) S5000x64 .f32 0x00000000#32) (ix2 p q) : EReal))
    * ((broadcastTo S5000x64 (shapeCast S5000x1 s shapeCasts_S5000x1_S5000x1) broadcasts_S5000x1_S5000x64 (ix2 p q) : EReal)) = _
  refine congrArg₂ (· * ·) ?_ ?_
  · exact Cert.LibMatmulRows.matmul_zero_ix2 dot_S5000x128_S128x64_S5000x64_1_0_0_1_n_n rfl rfl lhs0 lhs1 rhs0 rhs1 none _ _ p q
  · refine (Cert.LibKeepdims.broadcastTo_a1_ab_apply _ _ p q).trans ?_
    rw [shapeCast_self]

/-! ## The block a point writes back is a block of `rowsScaled` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of the features, the factor column and the output move with
    the point; the weights are one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed_eq (c : Dev nD) (t : Fin cfg0.N) :
    (dat0 V c).flushed 3 t = ((cfg0.win 3).blk t).view.read (Elt Ideal) (rowsScaled (V c main_arg0) (V c main_v11) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨e0, e1, e2, e3, e4, e5, e6, e7⟩ := idx_facts t
  have ht : t.val < 20 := lt_of_lt_of_eq t.isLt N_0
  funext j
  obtain ⟨p, q, rfl⟩ : ∃ (p : Fin 5000) (q : Fin 64), j = ix2 p q := ⟨j 0, j 1, eq_ix2 j⟩
  refine (pay_apply _ _ _ p q).trans ?_
  have hp : p.val < 5000 := p.isLt
  have hq : q.val < 64 := q.isLt
  -- the row of the arrays that row p of block t is
  have hR : t.val * 5000 + p.val < 100000 := by omega
  show _ = rowsScaledAt (V c main_arg0) (V c main_v11) (V c main_arg3)
    ⟨(((cfg0.win 3).blk t).view.emb (ix2 p q) 0).val, _⟩ ⟨(((cfg0.win 3).blk t).view.emb (ix2 p q) 1).val, _⟩
  have hrow : (⟨(((cfg0.win 3).blk t).view.emb (ix2 p q) 0).val, idx2_lt0 _⟩ : Fin 100000) = ⟨t.val * 5000 + p.val, hR⟩ := by
    apply Fin.ext
    show win0_3.index t (0 : Fin 2) * 5000 + 1 * p.val = t.val * 5000 + p.val
    omega
  have hcol : (⟨(((cfg0.win 3).blk t).view.emb (ix2 p q) 1).val, idx2_lt1 _⟩ : Fin 64) = q := by
    apply Fin.ext
    show win0_3.index t (1 : Fin 2) * 64 + 1 * q.val = q.val
    omega
  rw [hrow, hcol]
  unfold rowsScaledAt
  have hx : ∀ k : Fin 128, iblk0 V c 0 t (ix2 p k) = V c main_arg0 (ix2 ⟨t.val * 5000 + p.val, hR⟩ k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have hw : ∀ k : Fin 128, iblk0 V c 2 t (ix2 k q) = V c main_arg3 (ix2 k q) := fun k => by
    show V c main_arg3 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 64 + 1 * q.val = q.val; omega
  have hs : iblk0 V c 1 t (ix2 p 0) = V c main_v11 (ix2 ⟨t.val * 5000 + p.val, hR⟩ 0) := by
    show V c main_v11 (((cfg0.win 1).blk t).view.emb (ix2 p 0)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  exact congrArg₂ (· * ·) (Finset.sum_congr rfl fun k _ => congrArg₂ (· * ·) (hx k) (hw k)) hs

/-! ## The blocks tile the rows -/

theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- Row `r` is in the block of point `r / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hb : (i 0).val / 5000 < 20 := by omega
  refine ⟨⟨(i 0).val / 5000, lt_of_lt_of_eq hb N_0.symm⟩, flush0_3 _, ?_⟩
  obtain ⟨e0, e1, e2, e3, e4, e5, e6, e7⟩ := idx_facts ⟨(i 0).val / 5000, lt_of_lt_of_eq hb N_0.symm⟩
  rw [mem_blk]
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, _⟩ (1 : Fin 2) * 64 ≤ (i 1).val ∧ (i 1).val < win0_3.index ⟨(i 0).val / 5000, _⟩ (1 : Fin 2) * 64 + 64
    rw [e7]
    omega

/-- THE OUTPUT ARRAY after the call. -/
theorem final (c : Dev nD) :
    (dat0 V c).arrAt 3 cfg0.N = rowsScaled (V c main_arg0) (V c main_v11) (V c main_arg3) :=
  (dat0 V c).arrAt_eq_of_cover 3 _ (fun t _ => flushed_eq V c t) cover

end Cert.KernelIdeal.Project1

end
-- ==== Proof.Project2.lean ====
import proofs.«112397_j12412455486167_2_alg».proof.Proof.Gen.KernelIdeal.Frame
import proofs.«112397_j12412455486167_2_alg».proof.Proof.LibMatmulRows
import proofs.«112397_j12412455486167_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# The second pipelined call: the first layer's bias and relu, the second weight matrix, then the scale

At a block of 5000 rows the call forms `relu(a(p, k) · d(p, 0) + b(0, k))` from the block of the aggregated rows `a`, the
block of the column of destination-degree factors `d` and the bias row `b`; multiplies those rows by the whole second
weight matrix `[64, 64]`; and scales row `p` of the product by entry `p` of the column of source-degree factors `s`.
The blocks tile the rows, so the output array holds at `(r, q)`
`(∑ₖ max(a(r, k) · d(r, 0) + b(0, k), 0) · W(k, q)) · s(r, 0)`.
-/

set_option maxRecDepth 16384

noncomputable section

open scoped BigOperators

namespace Cert.KernelIdeal.Project2

open Cert.KernelIdeal Cert.KernelIdeal.Gen Idealize.ShloMosaic Idealize.ShloMosaic.TcCoe Idealize.SL.Sem
open Idealize.ShloMosaic.ValueIdx
open Idealize.ShloMosaic.Pipeline (Dat)

/-- The first layer's output at `(p, k)`: scaled, biased, clamped below by the zero word. -/
def hiddenAt (a : S100000x64.Idx → EReal) (d : S100000x1.Idx → EReal) (b : S1x64.Idx → EReal) (p : Fin 100000) (k : Fin 64) : EReal :=
  max (a (ix2 p k) * d (ix2 p 0) + b (ix2 0 k)) (Ideal.ofBits .f32 0x00000000#32)

/-- Row `p` of the first layer's output against column `q` of `W`, scaled by row `p`'s factor. -/
def hiddenScaledAt (a : S100000x64.Idx → EReal) (d : S100000x1.Idx → EReal) (b : S1x64.Idx → EReal) (s : S100000x1.Idx → EReal)
    (W : S64x64.Idx → EReal) (p : Fin 100000) (q : Fin 64) : EReal :=
  (∑ k : Fin 64, hiddenAt a d b p k * W (ix2 k q)) * s (ix2 p 0)

/-- The whole output array of the call, as a function of the five arrays it reads. -/
def hiddenScaled (a : S100000x64.Idx → EReal) (d : S100000x1.Idx → EReal) (b : S1x64.Idx → EReal) (s : S100000x1.Idx → EReal)
    (W : S64x64.Idx → EReal) : S100000x64.Idx → EReal :=
  fun i => hiddenScaledAt a d b s W ⟨(i 0).val, idx2_lt0 i⟩ ⟨(i 1).val, idx2_lt1 i⟩

/-! ## The body's value at an entry of the block -/

theorem lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The stored value at `(p, q)` of the block. -/
theorem pay_apply (a : Vec Ideal S5000x64 .f32) (d : Vec Ideal S5000x1 .f32) (b : Vec Ideal S1x64 .f32) (w : Vec Ideal S64x64 .f32)
    (s : Vec Ideal S5000x1 .f32) (p : Fin 5000) (q : Fin 64) :
    k1_pay1 a d b w s (ix2 p q)
      = (∑ k : Fin 64, max (a (ix2 p k) * d (ix2 p 0) + b (ix2 0 k)) (Ideal.ofBits .f32 0x00000000#32) * w (ix2 k q)) * s (ix2 p 0) := by
  unfold k1_pay1
  show ((matmul (F := Ideal) dot_S5000x64_S64x64_S5000x64_1_0_0_1_n_n none
      (truncf .bf16 (maximumf (addf (mulf (shapeCast S5000x64 a shapeCasts_S5000x64_S5000x64)
          (broadcastTo S5000x64 (shapeCast S5000x1 d shapeCasts_S5000x1_S5000x1) broadcasts_S5000x1_S5000x64))
          (broadcastTo S5000x64 (shapeCast S1x64 b shapeCasts_S1x64_S1x64) broadcasts_S1x64_S5000x64))
        (broadcast S5000x64 (Scalar.ofBits (F := Ideal) .f32 0x00000000#32))) bitsLt_bf16_f32)
      (truncf .bf16 w bitsLt_bf16_f32)
      (constant (F := Ideal) S5000x64 .f32 0x00000000#32) (ix2 p q) : EReal))
    * ((broadcastTo S5000x64 (shapeCast S5000x1 s shapeCasts_S5000x1_S5000x1) broadcasts_S5000x1_S5000x64 (ix2 p q) : EReal)) = _
  refine congrArg₂ (· * ·) ?_ ?_
  · refine (Cert.LibMatmulRows.matmul_zero_ix2 dot_S5000x64_S64x64_S5000x64_1_0_0_1_n_n rfl rfl lhs0 lhs1 rhs0 rhs1 none _ _ p q).trans ?_
    refine Finset.sum_congr rfl fun k _ => congrArg₂ (· * ·) ?_ rfl
    show max (((shapeCast S5000x64 a shapeCasts_S5000x64_S5000x64 (ix2 p k) : EReal))
        * ((broadcastTo S5000x64 (shapeCast S5000x1 d shapeCasts_S5000x1_S5000x1) broadcasts_S5000x1_S5000x64 (ix2 p k) : EReal))
        + ((broadcastTo S5000x64 (shapeCast S1x64 b shapeCasts_S1x64_S1x64) broadcasts_S1x64_S5000x64 (ix2 p k) : EReal)))
      (Ideal.ofBits .f32 0x00000000#32) = _
    refine congrArg₂ max (congrArg₂ (· + ·) (congrArg₂ (· * ·) ?_ ?_) ?_) rfl
    · exact congrFun (shapeCast_self a _) (ix2 p k)
    · exact (Cert.LibKeepdims.broadcastTo_a1_ab_apply _ _ p k).trans (congrFun (shapeCast_self d _) _)
    · exact (broadcastTo_1b_ab_apply _ _ p k).trans (congrFun (shapeCast_self b _) _)
  · exact (Cert.LibKeepdims.broadcastTo_a1_ab_apply _ _ p q).trans (congrFun (shapeCast_self s _) _)

/-! ## The block a point writes back is a block of `hiddenScaled` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point; the bias row and the weights are one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed_eq (c : Dev nD) (t : Fin cfg1.N) :
    (dat1 V c).flushed 5 t = ((cfg1.win 5).blk t).view.read (Elt Ideal)
      (hiddenScaled (V c main_v28) (V c main_v16) (V c main_v29) (V c main_v11) (V c main_arg5)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S5000x1) hz,
    View.ld_unit_zero (S := S1x64) hz]
  obtain ⟨e0, e1, e2, e3, e4, e5, e6, e7, e8, e9, e10, e11⟩ := idx_facts t
  have ht : t.val < 20 := lt_of_lt_of_eq t.isLt N_1
  funext j
  obtain ⟨p, q, rfl⟩ : ∃ (p : Fin 5000) (q : Fin 64), j = ix2 p q := ⟨j 0, j 1, eq_ix2 j⟩
  refine (pay_apply _ _ _ _ _ p q).trans ?_
  have hp : p.val < 5000 := p.isLt
  have hq : q.val < 64 := q.isLt
  have hR : t.val * 5000 + p.val < 100000 := by omega
  show _ = hiddenScaledAt (V c main_v28) (V c main_v16) (V c main_v29) (V c main_v11) (V c main_arg5)
    ⟨(((cfg1.win 5).blk t).view.emb (ix2 p q) 0).val, _⟩ ⟨(((cfg1.win 5).blk t).view.emb (ix2 p q) 1).val, _⟩
  have hrow : (⟨(((cfg1.win 5).blk t).view.emb (ix2 p q) 0).val, idx2_lt0 _⟩ : Fin 100000) = ⟨t.val * 5000 + p.val, hR⟩ := by
    apply Fin.ext
    show win1_5.index t (0 : Fin 2) * 5000 + 1 * p.val = t.val * 5000 + p.val
    omega
  have hcol : (⟨(((cfg1.win 5).blk t).view.emb (ix2 p q) 1).val, idx2_lt1 _⟩ : Fin 64) = q := by
    apply Fin.ext
    show win1_5.index t (1 : Fin 2) * 64 + 1 * q.val = q.val
    omega
  rw [hrow, hcol]
  unfold hiddenScaledAt hiddenAt
  have ha : ∀ k : Fin 64, iblk1 V c 0 t (ix2 p k) = V c main_v28 (ix2 ⟨t.val * 5000 + p.val, hR⟩ k) := fun k => by
    show V c main_v28 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have hd : iblk1 V c 1 t (ix2 p 0) = V c main_v16 (ix2 ⟨t.val * 5000 + p.val, hR⟩ 0) := by
    show V c main_v16 (((cfg1.win 1).blk t).view.emb (ix2 p 0)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have hb : ∀ k : Fin 64, iblk1 V c 2 t (ix2 0 k) = V c main_v29 (ix2 0 k) := fun k => by
    show V c main_v29 (((cfg1.win 2).blk t).view.emb (ix2 0 k)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have hs : iblk1 V c 3 t (ix2 p 0) = V c main_v11 (ix2 ⟨t.val * 5000 + p.val, hR⟩ 0) := by
    show V c main_v11 (((cfg1.win 3).blk t).view.emb (ix2 p 0)) = _
    refine congrArg _ (funext fun a => Fin.ext ?_)
    match a with
    | ⟨0, _⟩ => show win1_3.index t (0 : Fin 2) * 5000 + 1 * p.val = t.val * 5000 + p.val; omega
    | ⟨1, _⟩ => show win1_3.index t (1 : Fin 2) * 1 + 1 * 0 = 0; omega
  have hw : ∀ k : Fin 64, iblk1 V c 4 t (ix2 k q) = V c main_arg5 (ix2 k q) := fun k => by
    show V c main_arg5 (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  refine congrArg₂ (· * ·) (Finset.sum_congr rfl fun k _ => congrArg₂ (· * ·) ?_ (hw k)) hs
  exact congrArg₂ max (congrArg₂ (· + ·) (congrArg₂ (· * ·) (ha k) hd) (hb k)) rfl

/-! ## The blocks tile the rows -/

theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v30).slice (win1_5.rect t)).set ↔ _
  rw [View.set_slice_whole, Rect.mem_set_unit]
  exact Iff.rfl

/-- Row `r` is in the block of point `r / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hb : (i 0).val / 5000 < 20 := by omega
  refine ⟨⟨(i 0).val / 5000, lt_of_lt_of_eq hb N_1.symm⟩, flush1_5 _, ?_⟩
  obtain ⟨e0, e1, e2, e3, e4, e5, e6, e7, e8, e9, e10, e11⟩ := idx_facts ⟨(i 0).val / 5000, lt_of_lt_of_eq hb N_1.symm⟩
  rw [mem_blk]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e10]
    show (i 0).val / 5000 * 5000 ≤ (i 0).val ∧ (i 0).val < (i 0).val / 5000 * 5000 + 5000
    omega
  | ⟨1, _⟩ =>
    show win1_5.index ⟨(i 0).val / 5000, _⟩ (1 : Fin 2) * 64 ≤ (i 1).val ∧ (i 1).val < win1_5.index ⟨(i 0).val / 5000, _⟩ (1 : Fin 2) * 64 + 64
    rw [e11]
    omega

/-- THE OUTPUT ARRAY after the call. -/
theorem final (c : Dev nD) :
    (dat1 V c).arrAt 5 cfg1.N = hiddenScaled (V c main_v28) (V c main_v16) (V c main_v29) (V c main_v11) (V c main_arg5) :=
  (dat1 V c).arrAt_eq_of_cover 5 _ (fun t _ => flushed_eq V c t) cover

end Cert.KernelIdeal.Project2

end
-- ==== Proof.Finish.lean ====
import proofs.«112397_j12412455486167_2_alg».proof.Proof.Gen.KernelIdeal.Frame
import proofs.«112397_j12412455486167_2_alg».proof.Proof.LibMatmulRows
import proofs.«112397_j12412455486167_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# The third pipelined call: the second layer's scale and bias

At a block of 5000 rows the call stores `a(p, q) · d(p, 0) + b(0, q)`: the block of the aggregated rows, each row scaled
by its destination-degree factor, plus the bias row. The blocks tile the rows, so the result array holds that value
at every `(r, q)`.
-/

set_option maxRecDepth 16384

noncomputable section

open scoped BigOperators

namespace Cert.KernelIdeal.Finish

open Cert.KernelIdeal Cert.KernelIdeal.Gen Idealize.ShloMosaic Idealize.ShloMosaic.TcCoe Idealize.SL.Sem
open Idealize.ShloMosaic.ValueIdx
open Idealize.ShloMosaic.Pipeline (Dat)

/-- Row `p` scaled by its factor, plus the bias at column `q`. -/
def scaledBiasedAt (a : S100000x64.Idx → EReal) (d : S100000x1.Idx → EReal) (b : S1x64.Idx → EReal) (p : Fin 100000) (q : Fin 64) : EReal :=
  a (ix2 p q) * d (ix2 p 0) + b (ix2 0 q)

/-- The whole result array of the call, as a function of the three arrays it reads. -/
def scaledBiased (a : S100000x64.Idx → EReal) (d : S100000x1.Idx → EReal) (b : S1x64.Idx → EReal) : S100000x64.Idx → EReal :=
  fun i => scaledBiasedAt a d b ⟨(i 0).val, idx2_lt0 i⟩ ⟨(i 1).val, idx2_lt1 i⟩

/-- The stored value at `(p, q)` of the block. -/
theorem pay_apply (a : Vec Ideal S5000x64 .f32) (d : Vec Ideal S5000x1 .f32) (b : Vec Ideal S1x64 .f32) (p : Fin 5000) (q : Fin 64) :
    k2_pay1 a d b (ix2 p q) = a (ix2 p q) * d (ix2 p 0) + b (ix2 0 q) := by
  unfold k2_pay1
  show ((shapeCast S5000x64 a shapeCasts_S5000x64_S5000x64 (ix2 p q) : EReal))
      * ((broadcastTo S5000x64 (shapeCast S5000x1 d shapeCasts_S5000x1_S5000x1) broadcasts_S5000x1_S5000x64 (ix2 p q) : EReal))
      + ((broadcastTo S5000x64 (shapeCast S1x64 b shapeCasts_S1x64_S1x64) broadcasts_S1x64_S5000x64 (ix2 p q) : EReal)) = _
  refine congrArg₂ (· + ·) (congrArg₂ (· * ·) ?_ ?_) ?_
  · exact congrFun (shapeCast_self a _) (ix2 p q)
  · exact (Cert.LibKeepdims.broadcastTo_a1_ab_apply _ _ p q).trans (congrFun (shapeCast_self d _) _)
  · exact (broadcastTo_1b_ab_apply _ _ p q).trans (congrFun (shapeCast_self b _) _)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point; the bias row is one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed_eq (c : Dev nD) (t : Fin cfg2.N) :
    (dat2 V c).flushed 3 t = ((cfg2.win 3).blk t).view.read (Elt Ideal)
      (scaledBiased (V c main_v41) (V c main_v16) (V c main_v42)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e0, e1, e2, e3, e4, e5, e6, e7⟩ := idx_facts t
  have ht : t.val < 20 := lt_of_lt_of_eq t.isLt N_2
  funext j
  obtain ⟨p, q, rfl⟩ : ∃ (p : Fin 5000) (q : Fin 64), j = ix2 p q := ⟨j 0, j 1, eq_ix2 j⟩
  refine (pay_apply _ _ _ p q).trans ?_
  have hp : p.val < 5000 := p.isLt
  have hq : q.val < 64 := q.isLt
  have hR : t.val * 5000 + p.val < 100000 := by omega
  show _ = scaledBiasedAt (V c main_v41) (V c main_v16) (V c main_v42)
    ⟨(((cfg2.win 3).blk t).view.emb (ix2 p q) 0).val, _⟩ ⟨(((cfg2.win 3).blk t).view.emb (ix2 p q) 1).val, _⟩
  have hrow : (⟨(((cfg2.win 3).blk t).view.emb (ix2 p q) 0).val, idx2_lt0 _⟩ : Fin 100000) = ⟨t.val * 5000 + p.val, hR⟩ := by
    apply Fin.ext
    show win2_3.index t (0 : Fin 2) * 5000 + 1 * p.val = t.val * 5000 + p.val
    omega
  have hcol : (⟨(((cfg2.win 3).blk t).view.emb (ix2 p q) 1).val, idx2_lt1 _⟩ : Fin 64) = q := by
    apply Fin.ext
    show win2_3.index t (1 : Fin 2) * 64 + 1 * q.val = q.val
    omega
  rw [hrow, hcol]
  unfold scaledBiasedAt
  have ha : iblk2 V c 0 t (ix2 p q) = V c main_v41 (ix2 ⟨t.val * 5000 + p.val, hR⟩ q) := by
    show V c main_v41 (((cfg2.win 0).blk t).view.emb (ix2 p q)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * q.val = q.val; omega
  have hd : iblk2 V c 1 t (ix2 p 0) = V c main_v16 (ix2 ⟨t.val * 5000 + p.val, hR⟩ 0) := by
    show V c main_v16 (((cfg2.win 1).blk t).view.emb (ix2 p 0)) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  have hb : iblk2 V c 2 t (ix2 0 q) = V c main_v42 (ix2 0 q) := by
    show V c main_v42 (((cfg2.win 2).blk t).view.emb (ix2 0 q)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega
  exact congrArg₂ (· + ·) (congrArg₂ (· * ·) ha hd) hb

theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v43).slice (win2_3.rect t)).set ↔ _
  rw [View.set_slice_whole, Rect.mem_set_unit]
  exact Iff.rfl

/-- Row `r` is in the block of point `r / 5000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hb : (i 0).val / 5000 < 20 := by omega
  refine ⟨⟨(i 0).val / 5000, lt_of_lt_of_eq hb N_2.symm⟩, flush2_3 _, ?_⟩
  obtain ⟨e0, e1, e2, e3, e4, e5, e6, e7⟩ := idx_facts ⟨(i 0).val / 5000, lt_of_lt_of_eq hb N_2.symm⟩
  rw [mem_blk]
  intro a
  match a with
  | ⟨0, _⟩ =>
    show win2_3.index ⟨(i 0).val / 5000, _⟩ (0 : Fin 2) * 5000 ≤ (i 0).val ∧ (i 0).val < win2_3.index ⟨(i 0).val / 5000, _⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, _⟩ (1 : Fin 2) * 64 ≤ (i 1).val ∧ (i 1).val < win2_3.index ⟨(i 0).val / 5000, _⟩ (1 : Fin 2) * 64 + 64
    rw [e7]
    omega

/-- THE RESULT ARRAY after the call. -/
theorem final (c : Dev nD) :
    (dat2 V c).arrAt 3 cfg2.N = scaledBiased (V c main_v41) (V c main_v16) (V c main_v42) :=
  (dat2 V c).arrAt_eq_of_cover 3 _ (fun t _ => flushed_eq V c t) cover

end Cert.KernelIdeal.Finish

end
-- ==== Proof.KernelValue.lean ====
import proofs.«112397_j12412455486167_2_alg».proof.Proof.Project1
import proofs.«112397_j12412455486167_2_alg».proof.Proof.Project2
import proofs.«112397_j12412455486167_2_alg».proof.Proof.Finish
import proofs.«112397_j12412455486167_2_alg».proof.Proof.KernelRun
import Idealize.ShloMosaic.Lib.StableHlo.Run

/-!
# What the idealized kernel's result array holds

Between the three pipelined calls the host computes, from the edge arrays alone, the two columns of degree factors
(a scatter-add of ones, clamped below by one, raised to the power `-1/2`), and after each of the first two calls it gathers the call's output rows at
the edges' sources and scatter-adds them at the edges' destinations. Reading each buffer at the boundary where it
is consumed back to where it was written — a call's input windows and the buffers a call does not name are
unchanged by it; a host stretch changes only the buffers it writes — the result array is the third call's closed form
of the aggregation of the second call's closed form of the aggregation of the first call's closed form.
-/

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)

/-! ## The host's functions -/

/-- The degree factors of an index array: how often each node occurs in it, at least one, to the power `-1/2`. -/
def degFactor (idx : IVec S3200000 32) : FVec Ideal S100000 .f32 :=
  Host.powf
    (maximumf
      (Host.scatterAdd scatter_S100000_S3200000x1_S3200000_n_0_0_1
        (broadcastInDim S100000 ![] bcast_S_S100000 (constant S_ .f32 0x00000000#32))
        (broadcastInDim S3200000x1 ![0] bcast_S3200000_S3200000x1_0 idx)
        (broadcastInDim S3200000 ![] bcast_S_S3200000 (constant S_ .f32 0x3F800000#32)))
      (broadcastInDim S100000 ![] bcast_S_S100000 (constant S_ .f32 0x3F800000#32)))
    (broadcastInDim S100000 ![] bcast_S_S100000 (constant S_ .f32 0xBF000000#32))

/-- The factors as a column. -/
def degColumn (idx : IVec S3200000 32) : FVec Ideal S100000x1 .f32 :=
  shapeCast S100000x1 (degFactor idx) shapeCasts_S100000_S100000x1

/-- A bias vector as a row. -/
def biasRow (b : FVec Ideal S64 .f32) : FVec Ideal S1x64 .f32 := shapeCast S1x64 b shapeCasts_S64_S1x64

/-- Neighbourhood aggregation: the rows of `h` gathered at the sources (a negative source wrapped once) and summed at the destinations. -/
def aggregate (h : FVec Ideal S100000x64 .bf16) (src dst : IVec S3200000 32) : FVec Ideal S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (extf .f32
      (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      bitsLt_bf16_f32)

variable (m : (ℓ : Loc nD τ sig) → Buf (Elt Ideal) ℓ) (ρ : Dev nD → PrngReg) (c : Dev nD)

/-! ## Buffers carried unchanged through the segments -/

theorem arg0_at1 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg3_at1 : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg1_at2 : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg2_at2 : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg4_at2 : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg5_at3 : W3 m ρ c (Proc.devRef .tc main_arg5) = W0 m ρ c (Proc.devRef .tc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg1_at4 : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg2_at4 : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg6_at4 : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v11_at3 : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 1).trans (((dat0 (V1 m ρ) c).arrAt_in 1 rfl _).trans (A_eq0 (V1 m ρ) c 1))

theorem v16_at3 : W3 m ρ c (Proc.devRef .tc main_v16) = W1 m ρ c (Proc.devRef .tc main_v16) :=
  calc W3 m ρ c (Proc.devRef .tc main_v16)
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v16) := W2_of_ne m ρ c main_v16 (by decide)

theorem v16_at5 : W5 m ρ c (Proc.devRef .tc main_v16) = W1 m ρ c (Proc.devRef .tc main_v16) :=
  calc W5 m ρ c (Proc.devRef .tc main_v16)
    _ = W4 m ρ c (Proc.devRef .tc main_v16) := StableHlo.after_of_forall_not_mem (b := Proc.devRef .tc main_v16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v16) := (W4_arr m ρ c 1).trans (((dat1 (V3 m ρ) c).arrAt_in 1 rfl _).trans (A_eq1 (V3 m ρ) c 1))
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v16) := W2_of_ne m ρ c main_v16 (by decide)

/-! ## The buffers the host writes -/

theorem v11_at1 : W1 m ρ c (Proc.devRef .tc main_v11) = degColumn (m ((c : Thread nD τ).loc main_arg1)) := by
  show StableHlo.after hostOps0 (W0 m ρ c) (Proc.devRef .tc main_v11) = _
  dsimp only [hostOps0]
  after_results
  rfl

theorem v16_at1 : W1 m ρ c (Proc.devRef .tc main_v16) = degColumn (m ((c : Thread nD τ).loc main_arg2)) := by
  show StableHlo.after hostOps0 (W0 m ρ c) (Proc.devRef .tc main_v16) = _
  dsimp only [hostOps0]
  after_results
  rfl

theorem v28_at3 : W3 m ρ c (Proc.devRef .tc main_v28)
    = aggregate (W2 m ρ c (Proc.devRef .tc main_v17)) (W2 m ρ c (Proc.devRef .tc main_arg1)) (W2 m ρ c (Proc.devRef .tc main_arg2)) := by
  show StableHlo.after hostOps1 (W2 m ρ c) (Proc.devRef .tc main_v28) = _
  dsimp only [hostOps1]
  after_results
  rfl

theorem v29_at3 : W3 m ρ c (Proc.devRef .tc main_v29) = biasRow (W2 m ρ c (Proc.devRef .tc main_arg4)) := by
  show StableHlo.after hostOps1 (W2 m ρ c) (Proc.devRef .tc main_v29) = _
  dsimp only [hostOps1]
  after_results
  rfl

theorem v41_at5 : W5 m ρ c (Proc.devRef .tc main_v41)
    = aggregate (W4 m ρ c (Proc.devRef .tc main_v30)) (W4 m ρ c (Proc.devRef .tc main_arg1)) (W4 m ρ c (Proc.devRef .tc main_arg2)) := by
  show StableHlo.after hostOps2 (W4 m ρ c) (Proc.devRef .tc main_v41) = _
  dsimp only [hostOps2]
  after_results
  rfl

theorem v42_at5 : W5 m ρ c (Proc.devRef .tc main_v42) = biasRow (W4 m ρ c (Proc.devRef .tc main_arg6)) := by
  show StableHlo.after hostOps2 (W4 m ρ c) (Proc.devRef .tc main_v42) = _
  dsimp only [hostOps2]
  after_results
  rfl

/-! ## The three calls and the two aggregations, from the launch arrays -/

/-- A buffer at launch is the launch memory's. -/
theorem at0 (b : Ref sig .tc) : W0 m ρ c (Proc.devRef .tc b) = m ((c : Thread nD τ).loc b) := rfl

/-- After the first call: the features' rows against the first weights, scaled by the source factors. -/
theorem first_eq : W2 m ρ c (Proc.devRef .tc main_v17) = (Project1.rowsScaled (m ((c : Thread nD τ).loc main_arg0)) (degColumn (m ((c : Thread nD τ).loc main_arg1))) (m ((c : Thread nD τ).loc main_arg3))) := by
  refine (W2_arr m ρ c 3).trans ?_
  refine (Project1.final (V1 m ρ) c).trans ?_
  show Project1.rowsScaled (W1 m ρ c (Proc.devRef .tc main_arg0)) (W1 m ρ c (Proc.devRef .tc main_v11)) (W1 m ρ c (Proc.devRef .tc main_arg3)) = _
  rw [arg0_at1, v11_at1, arg3_at1, at0, at0]

/-- Its aggregation. -/
theorem agg1_eq : W3 m ρ c (Proc.devRef .tc main_v28) = (aggregate (Project1.rowsScaled (m ((c : Thread nD τ).loc main_arg0)) (degColumn (m ((c : Thread nD τ).loc main_arg1))) (m ((c : Thread nD τ).loc main_arg3))) (m ((c : Thread nD τ).loc main_arg1)) (m ((c : Thread nD τ).loc main_arg2))) := by
  rw [v28_at3, first_eq, arg1_at2, arg2_at2, at0, at0]

/-- After the second call. -/
theorem second_eq : W4 m ρ c (Proc.devRef .tc main_v30) = (Project2.hiddenScaled (aggregate (Project1.rowsScaled (m ((c : Thread nD τ).loc main_arg0)) (degColumn (m ((c : Thread nD τ).loc main_arg1))) (m ((c : Thread nD τ).loc main_arg3))) (m ((c : Thread nD τ).loc main_arg1)) (m ((c : Thread nD τ).loc main_arg2))) (degColumn (m ((c : Thread nD τ).loc main_arg2))) (biasRow (m ((c : Thread nD τ).loc main_arg4))) (degColumn (m ((c : Thread nD τ).loc main_arg1))) (m ((c : Thread nD τ).loc main_arg5))) := by
  refine (W4_arr m ρ c 5).trans ?_
  refine (Project2.final (V3 m ρ) c).trans ?_
  show Project2.hiddenScaled (W3 m ρ c (Proc.devRef .tc main_v28)) (W3 m ρ c (Proc.devRef .tc main_v16)) (W3 m ρ c (Proc.devRef .tc main_v29)) (W3 m ρ c (Proc.devRef .tc main_v11)) (W3 m ρ c (Proc.devRef .tc main_arg5)) = _
  rw [agg1_eq, v16_at3, v16_at1, v29_at3, arg4_at2, v11_at3, v11_at1, arg5_at3, at0, at0]

/-- Its aggregation. -/
theorem agg2_eq : W5 m ρ c (Proc.devRef .tc main_v41) = (aggregate (Project2.hiddenScaled (aggregate (Project1.rowsScaled (m ((c : Thread nD τ).loc main_arg0)) (degColumn (m ((c : Thread nD τ).loc main_arg1))) (m ((c : Thread nD τ).loc main_arg3))) (m ((c : Thread nD τ).loc main_arg1)) (m ((c : Thread nD τ).loc main_arg2))) (degColumn (m ((c : Thread nD τ).loc main_arg2))) (biasRow (m ((c : Thread nD τ).loc main_arg4))) (degColumn (m ((c : Thread nD τ).loc main_arg1))) (m ((c : Thread nD τ).loc main_arg5))) (m ((c : Thread nD τ).loc main_arg1)) (m ((c : Thread nD τ).loc main_arg2))) := by
  rw [v41_at5, second_eq, arg1_at4, arg2_at4, at0, at0]

/-- THE RESULT ARRAY, from the launch arrays. -/
theorem result_eq : W6 m ρ c (Proc.devRef .tc main_v43) = (Finish.scaledBiased (aggregate (Project2.hiddenScaled (aggregate (Project1.rowsScaled (m ((c : Thread nD τ).loc main_arg0)) (degColumn (m ((c : Thread nD τ).loc main_arg1))) (m ((c : Thread nD τ).loc main_arg3))) (m ((c : Thread nD τ).loc main_arg1)) (m ((c : Thread nD τ).loc main_arg2))) (degColumn (m ((c : Thread nD τ).loc main_arg2))) (biasRow (m ((c : Thread nD τ).loc main_arg4))) (degColumn (m ((c : Thread nD τ).loc main_arg1))) (m ((c : Thread nD τ).loc main_arg5))) (m ((c : Thread nD τ).loc main_arg1)) (m ((c : Thread nD τ).loc main_arg2))) (degColumn (m ((c : Thread nD τ).loc main_arg2))) (biasRow (m ((c : Thread nD τ).loc main_arg6)))) := by
  refine (W6_arr m ρ c 3).trans ?_
  refine (Finish.final (V5 m ρ) c).trans ?_
  show Finish.scaledBiased (W5 m ρ c (Proc.devRef .tc main_v41)) (W5 m ρ c (Proc.devRef .tc main_v16)) (W5 m ρ c (Proc.devRef .tc main_v42)) = _
  rw [agg2_eq, v16_at5, v16_at1, v42_at5, arg6_at4, at0]

end Cert.KernelIdeal.Whole

end
-- ==== Proof.LibRealEntries.lean ====
import Idealize.ShloMosaic.PureOps.Ideal
import Idealize.ShloMosaic.PureOps.Ideal.Laws

/-!
# Real entries inside the extended reals, and a scale moved through a contraction

On the extended reals a factor does not move across a sum in general (an infinite term absorbs). Where every entry
is a real number it does: `(∑ₖ aₖ·wₖ)·c = ∑ₖ (aₖ·c)·wₖ`. This file keeps the closure facts that say which
entries are reals — products, sums, maxima, a power of a base at least one to a negative real exponent, an exact
scatter-add of reals into reals — and that law; and the float words `-0.5` and `1.0` as reals.
-/

noncomputable section

open scoped BigOperators

namespace Cert.LibRealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self _ _)).add (ih fun i hi => h i (Finset.mem_insert_of_mem hi))

/-- The coercion of the reals commutes with a finite sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LAW: over real entries a scale applied after a contraction is the contraction of the scaled left factors. -/
theorem scale_sum {ι : Type*} [Fintype ι] (a w : ι → EReal) (c : EReal) (ha : ∀ k, IsReal (a k)) (hw : ∀ k, IsReal (w k))
    (hc : IsReal c) : (∑ k, a k * w k) * c = ∑ k, (a k * c) * w k := by
  choose a' ha' using ha
  choose w' hw' using hw
  obtain ⟨c', rfl⟩ := hc
  obtain rfl : a = fun k => ((a' k : ℝ) : EReal) := funext ha'
  obtain rfl : w = fun k => ((w' k : ℝ) : EReal) := funext hw'
  have h1 : ∀ k, ((a' k : ℝ) : EReal) * ((w' k : ℝ) : EReal) = ((a' k * w' k : ℝ) : EReal) := fun k => (EReal.coe_mul _ _).symm
  have h2 : ∀ k, (((a' k : ℝ) : EReal) * ((c' : ℝ) : EReal)) * ((w' k : ℝ) : EReal) = ((a' k * c' * w' k : ℝ) : EReal) :=
    fun k => by rw [← EReal.coe_mul, ← EReal.coe_mul]
  simp only [h1, h2]
  rw [coe_sum, coe_sum, ← EReal.coe_mul]
  congr 1
  rw [Finset.sum_mul]
  exact Finset.sum_congr rfl fun k _ => by ring

/-- A base clamped below by one, raised to a negative real power, is a real: the power of a real base by the real
    power function, and `0` at the infinite base. -/
theorem isReal_pow_max_one (d : EReal) (y : ℝ) (hy : y < 0) : IsReal (Ideal.pow (max d 1) (y : EReal)) := by
  induction d using EReal.rec with
  | bot =>
    rw [max_eq_right bot_le, ← EReal.coe_one]
    exact ⟨Real.rpow 1 y, rfl⟩
  | top =>
    rw [max_eq_left le_top]
    show IsReal (if 0 < (y : EReal) then ⊤ else if (y : EReal) = 0 then 1 else 0)
    rw [if_neg (not_lt.mpr (EReal.coe_nonpos.mpr hy.le)), if_neg (by exact_mod_cast hy.ne)]
    exact isReal_zero
  | coe x =>
    rw [← EReal.coe_one, ← EReal.coe_strictMono.monotone.map_max]
    exact ⟨Real.rpow (max x 1) y, rfl⟩

/-- A scatter-add of reals into reals is an array of reals: each entry is the operand's plus a finite sum of updates. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The word of `-0.5` is the real `-1/2`. -/
theorem ofBits_neg_half : Ideal.ofBits .f32 0xBF000000#32 = (((-1 / 2 : ℝ)) : EReal) := by
  simp [Ideal.ofBits, Ideal.ieee, -EReal.coe_mul]; norm_num

/-- The word of `1.0` is `1`. -/
theorem ofBits_one : Ideal.ofBits .f32 0x3F800000#32 = 1 := by
  simp [Ideal.ofBits, Ideal.ieee, -EReal.coe_mul]; norm_num

end Cert.LibRealEntries

end
-- ==== Proof.Finite.lean ====
import proofs.«112397_j12412455486167_2_alg».proof.Pre_finite_inputs
import proofs.«112397_j12412455486167_2_alg».proof.Proof.LibRealEntries
import Idealize.ShloMosaic.Lib.ReduceAll
import Idealize.ShloMosaic.Lib.Affine
import Idealize.ShloMosaic.Lib.ValueIdx
import Idealize.ShloMosaic.Lib.Pipeline.Value
import Idealize.ShloMosaic.PureOps.Ideal
import Idealize.ShloMosaic.PureOps.Ideal.Laws

/-!
# Finite inputs have real entries

The precondition says, of each of the five float arguments, that the conjunction over all entries of `|x| < +∞` holds.
On the extended reals `|x| = max(x, -x)` is `+∞` exactly at the two infinities, so every entry is a real number.
-/

noncomputable section

namespace Cert.Pre_finite_inputs.Decode

open Cert.Pre_finite_inputs Idealize.ShloMosaic Cert.LibRealEntries

instance : Subsingleton S_.Idx := ⟨fun a b => funext fun d => d.elim0⟩

/-- The word of `+∞`. -/
theorem ofBits_inf : Ideal.ofBits .f32 0x7F800000#32 = ⊤ := by simp [Ideal.ofBits, Ideal.ieee]

/-- An extended real whose absolute value is below `+∞` is a real. -/
theorem isReal_of_finite (x : EReal) (h : Ideal.cmp .olt (max x (-x)) (Ideal.ofBits .f32 0x7F800000#32) = 1#1) : IsReal x := by
  rw [ofBits_inf] at h
  induction x using EReal.rec with
  | bot => exfalso; revert h; simp [Ideal.cmp]
  | top => exfalso; revert h; simp [Ideal.cmp]
  | coe r => exact ⟨r, rfl⟩

/-- One argument's conjunct: the all-entries conjunction being 1 gives each entry real. -/
theorem entries_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1)
    (i : s.Idx) : IsReal (x i) := by
  have hi := Host.reduce_andi_all _ _ hr hu ValueIdx.ix0 e i
  have hb' : broadcastInDim s ![] hb (constant (F := Ideal) S_ .f32 0x7F800000#32) i = Ideal.ofBits .f32 0x7F800000#32 :=
    broadcastInDim_apply _ hb _ i (fun a => a.elim0) (fun a => a.elim0)
  rw [ValueIdx.cmpf_apply, hb'] at hi
  exact isReal_of_finite _ hi

variable [Facts]

/-- THE PRECONDITION, DECODED: every entry of the features, the two weight matrices and the two biases is a real. -/
theorem finite_entries (x0 : FVec Ideal S100000x128 .f32) (x1 x2 : IVec S3200000 32) (x3 : FVec Ideal S128x64 .f32)
    (x4 : FVec Ideal S64 .f32) (x5 : FVec Ideal S64x64 .f32) (x6 : FVec Ideal S64 .f32)
    (h : fn (F := Ideal) x0 x1 x2 x3 x4 x5 x6 = fun _ => 1#1) :
    (∀ i, IsReal (x0 i)) ∧ (∀ i, IsReal (x3 i)) ∧ (∀ i, IsReal (x4 i)) ∧ (∀ i, IsReal (x5 i)) ∧ (∀ i, IsReal (x6 i)) := by
  have h0 := congrFun h ValueIdx.ix0
  dsimp only [fn, fn_part1] at h0
  obtain ⟨h0345, e6⟩ := IntOp.andi_eq_one.mp h0
  obtain ⟨h034, e5⟩ := IntOp.andi_eq_one.mp h0345
  obtain ⟨h03, e4⟩ := IntOp.andi_eq_one.mp h034
  obtain ⟨e0, e3⟩ := IntOp.andi_eq_one.mp h03
  exact ⟨entries_real _ _ _ _ e0, entries_real _ _ _ _ e3, entries_real _ _ _ _ e4, entries_real _ _ _ _ e5, entries_real _ _ _ _ e6⟩

end Cert.Pre_finite_inputs.Decode

end
-- ==== Proof.RefValue.lean ====
import proofs.«112397_j12412455486167_2_alg».proof.Proof.Gen.ReferenceIdeal.Read
import proofs.«112397_j12412455486167_2_alg».proof.Proof.LibRealEntries
import proofs.«112397_j12412455486167_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

/-!
# The reference's stages, read at a row and a column

The reference is two graph convolutions. With `s`, `d` the source- and destination-degree factors (computed twice from
the edge arrays, by the same operations), `agg` the gather at the sources followed by the scatter-add at the destinations:

* `h₁(r, q) = ∑ₖ (x(r, k) · s(r)) · W₁(k, q)`,
* `h₂(r, q) = ∑ₖ (max(agg h₁ (r, k) · d(r) + b₁(k), 0) · s(r)) · W₂(k, q)`,
* `out(r, q) = agg h₂ (r, q) · d(r) + b₂(q)`.

Every degree factor is a real number (a power of a base at least one to the exponent `-1/2`), and an aggregation of
an array of reals is an array of reals (a finite sum of entries of the operand added to zero).
-/

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LibRealEntries

variable (x0 : S100000x128.Idx → EReal) (x1 x2 : IVec S3200000 32) (x3 : S128x64.Idx → EReal) (x4 : S64.Idx → EReal)
  (x5 : S64x64.Idx → EReal) (x6 : S64.Idx → EReal)

/-! ## The aggregation, as one function of the array it gathers from -/

/-- Gather the rows of `h` at the sources, add them up at the destinations. -/
def refAggregate (h : S100000x64.Idx → EReal) (x1 x2 : IVec S3200000 32) : S100000x64.Idx → EReal :=
  Host.scatterAdd (F := Ideal) (φ := .f32) scatter_S100000x64_S3200000x1_S3200000x64_1_0_0_1 (val_main_v26 (F := Ideal)) (val_main_v27 (F := Ideal) x2)
    (Host.gather gather_S100000x64_S3200000x1_S3200000x64_1_0_n_n_0_1_164 h (val_main_v24 (F := Ideal) x1))

theorem v28_eq : val_main_v28 (F := Ideal) x0 x1 x2 x3 = refAggregate (val_main_v18 (F := Ideal) x0 x1 x3) x1 x2 := rfl

theorem v64_eq : val_main_v64 (F := Ideal) x0 x1 x2 x3 x4 x5 = refAggregate (val_main_v54 (F := Ideal) x0 x1 x2 x3 x4 x5) x1 x2 := rfl

/-- The second computation of the source factors is the first. -/
theorem v46_eq : val_main_v46 (F := Ideal) x1 = val_main_v10 (F := Ideal) x1 := rfl
/-- The second computation of the destination factors is the first. -/
theorem v50_eq : val_main_v50 (F := Ideal) x2 = val_main_v14 (F := Ideal) x2 := rfl

/-! ## Which entries are reals -/

theorem isReal_v10 (i : S100000.Idx) : IsReal (val_main_v10 (F := Ideal) x1 i) := by
  rw [val_main_v10_apply, val_main_v8_apply, val_main_v7_apply, val_main_cst_2_apply, val_main_v9_apply, val_main_cst_3_apply]
  show IsReal (Ideal.pow (max (val_main_v3 (F := Ideal) x1 i) (Ideal.ofBits .f32 0x3F800000#32)) (Ideal.ofBits .f32 0xBF000000#32))
  rw [ofBits_one, ofBits_neg_half]
  exact isReal_pow_max_one _ _ (by norm_num)

theorem isReal_v14 (i : S100000.Idx) : IsReal (val_main_v14 (F := Ideal) x2 i) := by
  rw [val_main_v14_apply, val_main_v12_apply, val_main_v11_apply, val_main_cst_4_apply, val_main_v13_apply, val_main_cst_5_apply]
  show IsReal (Ideal.pow (max (val_main_v6 (F := Ideal) x2 i) (Ideal.ofBits .f32 0x3F800000#32)) (Ideal.ofBits .f32 0xBF000000#32))
  rw [ofBits_one, ofBits_neg_half]
  exact isReal_pow_max_one _ _ (by norm_num)

/-- The aggregation is the exact scatter-add of the gathered rows into the zero array. -/
theorem refAggregate_eq (h : S100000x64.Idx → EReal) :
    refAggregate h x1 x2 = Ideal.hostScatterAdd scatter_S100000x64_S3200000x1_S3200000x64_1_0_0_1 (val_main_v26 (F := Ideal)) (val_main_v27 (F := Ideal) x2)
      (Host.gather gather_S100000x64_S3200000x1_S3200000x64_1_0_n_n_0_1_164 h (val_main_v24 (F := Ideal) x1)) := rfl

theorem isReal_v26 (i : S100000x64.Idx) : IsReal (val_main_v26 (F := Ideal) i) := by
  rw [val_main_v26_apply, val_main_cst_7_apply]
  show IsReal (Ideal.ofBits .f32 0x00000000#32)
  rw [Ideal.ofBits_zero_f32]
  exact isReal_zero

/-- An aggregation of reals is an array of reals. -/
theorem isReal_refAggregate (h : S100000x64.Idx → EReal) (hh : ∀ i, IsReal (h i)) (i : S100000x64.Idx) :
    IsReal (refAggregate h x1 x2 i) := by
  rw [refAggregate_eq]
  exact isReal_hostScatterAdd _ _ _ _ isReal_v26 (fun j => hh _) i

/-! ## The stages at a row and a column -/

section Reads
variable (r : Fin 100000) (q : Fin 64)

theorem v16_at (k : Fin 128) : val_main_v16 (F := Ideal) x1 (ix2 r k) = val_main_v10 (F := Ideal) x1 (ix1 r) := by
  rw [val_main_v16_apply, val_main_v15_apply]
  exact congrArg _ (funext fun a => by match a with | ⟨0, _⟩ => rfl)

/-- The first transform. -/
theorem v18_at : val_main_v18 (F := Ideal) x0 x1 x3 (ix2 r q)
    = ∑ k : Fin 128, (x0 (ix2 r k) * val_main_v10 (F := Ideal) x1 (ix1 r)) * x3 (ix2 k q) := by
  rw [val_main_v18_apply]
  refine Finset.sum_congr rfl fun k _ => ?_
  have el : lidx_main_v18 (ix2 r q) k = ix2 r k := funext fun a => by match a with | ⟨0, _⟩ => rfl | ⟨1, _⟩ => rfl
  have er : ridx_main_v18 (ix2 r q) k = ix2 k q := funext fun a => by match a with | ⟨0, _⟩ => rfl | ⟨1, _⟩ => rfl
  rw [el, er, val_main_v17_apply, v16_at]
  rfl

theorem v30_at (k : Fin 64) : val_main_v30 (F := Ideal) x2 (ix2 r k) = val_main_v14 (F := Ideal) x2 (ix1 r) := by
  rw [val_main_v30_apply, val_main_v29_apply]
  exact congrArg _ (funext fun a => by match a with | ⟨0, _⟩ => rfl)

theorem v33_at (k : Fin 64) : val_main_v33 (F := Ideal) x4 (ix2 r k) = x4 (ix1 k) := by
  rw [val_main_v33_apply, val_main_v32_apply]
  exact congrArg _ (funext fun a => by match a with | ⟨0, _⟩ => rfl)

theorem v52_at (k : Fin 64) : val_main_v52 (F := Ideal) x1 (ix2 r k) = val_main_v10 (F := Ideal) x1 (ix1 r) := by
  rw [val_main_v52_apply, val_main_v51_apply, v46_eq]
  exact congrArg _ (funext fun a => by match a with | ⟨0, _⟩ => rfl)

/-- The first layer's output. -/
theorem v35_at (k : Fin 64) : val_main_v35 (F := Ideal) x0 x1 x2 x3 x4 (ix2 r k)
    = max (val_main_v28 (F := Ideal) x0 x1 x2 x3 (ix2 r k) * val_main_v14 (F := Ideal) x2 (ix1 r) + x4 (ix1 k)) (Ideal.ofBits .f32 0x00000000#32) := by
  rw [val_main_v35_apply, val_main_v34_apply, val_main_v31_apply, v30_at, v33_at, val_main_call0_v0_apply, val_main_call0_cst_apply]
  rfl

/-- The second transform. -/
theorem v54_at : val_main_v54 (F := Ideal) x0 x1 x2 x3 x4 x5 (ix2 r q)
    = ∑ k : Fin 64, (max (val_main_v28 (F := Ideal) x0 x1 x2 x3 (ix2 r k) * val_main_v14 (F := Ideal) x2 (ix1 r) + x4 (ix1 k)) (Ideal.ofBits .f32 0x00000000#32)
        * val_main_v10 (F := Ideal) x1 (ix1 r)) * x5 (ix2 k q) := by
  rw [val_main_v54_apply]
  refine Finset.sum_congr rfl fun k _ => ?_
  have el : lidx_main_v54 (ix2 r q) k = ix2 r k := funext fun a => by match a with | ⟨0, _⟩ => rfl | ⟨1, _⟩ => rfl
  have er : ridx_main_v54 (ix2 r q) k = ix2 k q := funext fun a => by match a with | ⟨0, _⟩ => rfl | ⟨1, _⟩ => rfl
  rw [el, er, val_main_v53_apply, v35_at, v52_at]
  rfl

theorem v66_at : val_main_v66 (F := Ideal) x2 (ix2 r q) = val_main_v14 (F := Ideal) x2 (ix1 r) := by
  rw [val_main_v66_apply, val_main_v65_apply, v50_eq]
  exact congrArg _ (funext fun a => by match a with | ⟨0, _⟩ => rfl)

theorem v69_at : val_main_v69 (F := Ideal) x6 (ix2 r q) = x6 (ix1 q) := by
  rw [val_main_v69_apply, val_main_v68_apply]
  exact congrArg _ (funext fun a => by match a with | ⟨0, _⟩ => rfl)

/-- The result. -/
theorem v70_at : val_main_v70 (F := Ideal) x0 x1 x2 x3 x4 x5 x6 (ix2 r q)
    = val_main_v64 (F := Ideal) x0 x1 x2 x3 x4 x5 (ix2 r q) * val_main_v14 (F := Ideal) x2 (ix1 r) + x6 (ix1 q) := by
  rw [val_main_v70_apply, val_main_v67_apply, v66_at, v69_at]
  rfl

end Reads

end Cert.ReferenceIdeal.RefValue

end
-- ==== Proof.Bridge.lean ====
import proofs.«112397_j12412455486167_2_alg».proof.Proof.KernelValue
import proofs.«112397_j12412455486167_2_alg».proof.Proof.RefValue
import proofs.«112397_j12412455486167_2_alg».proof.Proof.LibRealEntries
import proofs.«112397_j12412455486167_2_alg».proof.Proof.LibKeepdims
import Idealize.ShloMosaic.Lib.ValueLayout

/-!
# The two programs compute one function

The kernel scales AFTER each contraction, `(∑ₖ a(r, k) · W(k, q)) · s(r)`; the reference scales the left factor BEFORE
it, `∑ₖ (a(r, k) · s(r)) · W(k, q)`. Where `a`, `W` and `s` have real entries these agree (a real factor moves through a finite
sum of reals). The entries are real: the features, weights and biases by the precondition; the degree factors always; the
first aggregation because it sums entries of a real array; the first layer's output because it is built from those by
products, sums and a maximum. The gather and scatter-add between the layers are the same host operations on both sides and
are never opened beyond that. The last scale and bias are the same expression on both sides.
-/

set_option maxRecDepth 16384

noncomputable section

open scoped BigOperators

namespace Cert.Bridge

open Idealize.ShloMosaic Idealize.ShloMosaic.ValueIdx Cert.LibRealEntries
open Cert.KernelIdeal.Whole (degFactor degColumn biasRow aggregate)
open Cert.ReferenceIdeal.Read Cert.ReferenceIdeal.RefValue

variable (x0 : Cert.ReferenceIdeal.S100000x128.Idx → EReal) (x1 x2 : IVec Cert.ReferenceIdeal.S3200000 32) (x3 : Cert.ReferenceIdeal.S128x64.Idx → EReal)
  (x4 : Cert.ReferenceIdeal.S64.Idx → EReal) (x5 : Cert.ReferenceIdeal.S64x64.Idx → EReal) (x6 : Cert.ReferenceIdeal.S64.Idx → EReal)

/-! ## The host's functions are the same on both sides -/

theorem degFactor_src : degFactor x1 = val_main_v10 (F := Ideal) x1 := rfl
theorem degFactor_dst : degFactor x2 = val_main_v14 (F := Ideal) x2 := rfl
/-- The kernel gathers a narrower float format and widens it: the identity on the extended reals. -/
theorem aggregate_eq (h : Cert.ReferenceIdeal.S100000x64.Idx → EReal) : aggregate h x1 x2 = refAggregate h x1 x2 := rfl

theorem srcColumn_at (r : Fin 100000) : degColumn x1 (ix2 r 0) = val_main_v10 (F := Ideal) x1 (ix1 r) :=
  (Cert.LibKeepdims.shapeCast_a_a1_apply _ _ r 0).trans (congrFun (degFactor_src x1) _)
theorem dstColumn_at (r : Fin 100000) : degColumn x2 (ix2 r 0) = val_main_v14 (F := Ideal) x2 (ix1 r) :=
  (Cert.LibKeepdims.shapeCast_a_a1_apply _ _ r 0).trans (congrFun (degFactor_dst x2) _)
theorem biasRow_at (b : Cert.ReferenceIdeal.S64.Idx → EReal) (k : Fin 64) : biasRow b (ix2 0 k) = b (ix1 k) :=
  shapeCast_a_1a_apply _ _ 0 k

/-! ## The first layer's transform -/

variable (h0 : ∀ i, IsReal (x0 i)) (h3 : ∀ i, IsReal (x3 i)) (h4 : ∀ i, IsReal (x4 i)) (h5 : ∀ i, IsReal (x5 i))

include h0 h3 in
theorem first_eq : Cert.KernelIdeal.Project1.rowsScaled x0 (degColumn x1) x3 = val_main_v18 (F := Ideal) x0 x1 x3 := by
  funext i
  obtain ⟨r, q, rfl⟩ : ∃ (r : Fin 100000) (q : Fin 64), i = ix2 r q := ⟨i 0, i 1, eq_ix2 i⟩
  show Cert.KernelIdeal.Project1.rowsScaledAt x0 (degColumn x1) x3 r q = _
  unfold Cert.KernelIdeal.Project1.rowsScaledAt
  rw [srcColumn_at, v18_at]
  exact scale_sum (fun k : Fin 128 => x0 (ix2 r k)) (fun k => x3 (ix2 k q)) _ (fun k => h0 _) (fun k => h3 _) (isReal_v10 x1 _)

include h0 h3 in
theorem isReal_v18 (i : Cert.ReferenceIdeal.S100000x64.Idx) : IsReal (val_main_v18 (F := Ideal) x0 x1 x3 i) := by
  obtain ⟨r, q, rfl⟩ : ∃ (r : Fin 100000) (q : Fin 64), i = ix2 r q := ⟨i 0, i 1, eq_ix2 i⟩
  rw [v18_at]
  exact IsReal.sum _ _ fun k _ => ((h0 _).mul (isReal_v10 x1 _)).mul (h3 _)

include h0 h3 in
theorem isReal_v28 (i : Cert.ReferenceIdeal.S100000x64.Idx) : IsReal (val_main_v28 (F := Ideal) x0 x1 x2 x3 i) := by
  rw [v28_eq]
  exact isReal_refAggregate x1 x2 _ (isReal_v18 x0 x1 x3 h0 h3) i

/-! ## The second layer's transform -/

include h0 h3 h4 h5 in
theorem second_eq : Cert.KernelIdeal.Project2.hiddenScaled (val_main_v28 (F := Ideal) x0 x1 x2 x3) (degColumn x2) (biasRow x4) (degColumn x1) x5
    = val_main_v54 (F := Ideal) x0 x1 x2 x3 x4 x5 := by
  funext i
  obtain ⟨r, q, rfl⟩ : ∃ (r : Fin 100000) (q : Fin 64), i = ix2 r q := ⟨i 0, i 1, eq_ix2 i⟩
  show Cert.KernelIdeal.Project2.hiddenScaledAt (val_main_v28 (F := Ideal) x0 x1 x2 x3) (degColumn x2) (biasRow x4) (degColumn x1) x5 r q = _
  unfold Cert.KernelIdeal.Project2.hiddenScaledAt Cert.KernelIdeal.Project2.hiddenAt
  rw [srcColumn_at, v54_at]
  simp only [dstColumn_at, biasRow_at]
  refine scale_sum (fun k : Fin 64 => max (val_main_v28 (F := Ideal) x0 x1 x2 x3 (ix2 r k) * val_main_v14 (F := Ideal) x2 (ix1 r) + x4 (ix1 k))
      (Ideal.ofBits .f32 0x00000000#32)) (fun k => x5 (ix2 k q)) _ (fun k => ?_) (fun k => h5 _) (isReal_v10 x1 _)
  refine IsReal.max (((isReal_v28 x0 x1 x2 x3 h0 h3 _).mul (isReal_v14 x2 _)).add (h4 _)) ?_
  rw [Ideal.ofBits_zero_f32]
  exact isReal_zero

/-! ## The last scale and bias -/

theorem last_eq : Cert.KernelIdeal.Finish.scaledBiased (val_main_v64 (F := Ideal) x0 x1 x2 x3 x4 x5) (degColumn x2) (biasRow x6)
    = val_main_v70 (F := Ideal) x0 x1 x2 x3 x4 x5 x6 := by
  funext i
  obtain ⟨r, q, rfl⟩ : ∃ (r : Fin 100000) (q : Fin 64), i = ix2 r q := ⟨i 0, i 1, eq_ix2 i⟩
  show Cert.KernelIdeal.Finish.scaledBiasedAt (val_main_v64 (F := Ideal) x0 x1 x2 x3 x4 x5) (degColumn x2) (biasRow x6) r q = _
  unfold Cert.KernelIdeal.Finish.scaledBiasedAt
  rw [dstColumn_at, biasRow_at, v70_at]

/-! ## The whole -/

include h0 h3 h4 h5 in
/-- The kernel's three calls with the two aggregations between them compute the reference's result. -/
theorem whole_eq :
    Cert.KernelIdeal.Finish.scaledBiased
      (aggregate (Cert.KernelIdeal.Project2.hiddenScaled (aggregate (Cert.KernelIdeal.Project1.rowsScaled x0 (degColumn x1) x3) x1 x2)
        (degColumn x2) (biasRow x4) (degColumn x1) x5) x1 x2)
      (degColumn x2) (biasRow x6)
    = val_main_v70 (F := Ideal) x0 x1 x2 x3 x4 x5 x6 := by
  rw [first_eq x0 x1 x3 h0 h3]
  simp only [aggregate_eq]
  rw [← v28_eq, second_eq x0 x1 x2 x3 x4 x5 h0 h3 h4 h5, ← v64_eq, last_eq]

end Cert.Bridge

end
-- ==== Proof.lean ====
/-
  A two-layer graph convolution. With `D_s`, `D_d` the diagonal matrices of the source- and destination-degree factors and
  `A` the gather at the edges' sources followed by the scatter-add at their destinations, the reference computes
  `h₁ = (D_s X) W₁`, `z = relu(D_d (A h₁) + b₁)`, `h₂ = (D_s z) W₂`, `out = D_d (A h₂) + b₂`.
  The kernel computes the three dense stages in three pipelined calls over blocks of 5000 rows, scaling AFTER each
  contraction — `h₁ = D_s (X W₁)`, `h₂ = D_s (z W₂)`, then `out` — and leaves the two aggregations to the host, exactly as
  the reference has them.

  The frames of the two kernel programs are the generated ones; the reference's frame is its run with the result
  dropped. Nothing was rewritten by the idealization, so it is preserved trivially. For the value: the kernel's run ends
  with its result at the composed closed forms of the three calls (each call's blocks tile the rows, and row `p` of block
  `t` is row `5000·t + p`); the reference's run ends at its operations' composed term; and the two are one function of
  the arguments, because on real entries a real scale moves through a contraction and every entry involved is real
  (the inputs by the precondition, the degree factors and the aggregations by their form).
-/
import proofs.«112397_j12412455486167_2_alg».proof.Defs
import proofs.«112397_j12412455486167_2_alg».proof.Proof.Gen.Kernel
import proofs.«112397_j12412455486167_2_alg».proof.Proof.Gen.Kernel.Skeleton
import proofs.«112397_j12412455486167_2_alg».proof.Proof.Gen.Kernel.Launch
import proofs.«112397_j12412455486167_2_alg».proof.Proof.Gen.Kernel.Points
import proofs.«112397_j12412455486167_2_alg».proof.Proof.Gen.Kernel.Frame
import proofs.«112397_j12412455486167_2_alg».proof.Proof.Gen.KernelIdeal
import proofs.«112397_j12412455486167_2_alg».proof.Proof.Gen.KernelIdeal.Skeleton
import proofs.«112397_j12412455486167_2_alg».proof.Proof.Gen.KernelIdeal.Launch
import proofs.«112397_j12412455486167_2_alg».proof.Proof.Gen.KernelIdeal.Points
import proofs.«112397_j12412455486167_2_alg».proof.Proof.Gen.KernelIdeal.Frame
import proofs.«112397_j12412455486167_2_alg».proof.Proof.Gen.ReferenceIdeal
import proofs.«112397_j12412455486167_2_alg».proof.Proof.Gen.ReferenceIdeal.Run
import proofs.«112397_j12412455486167_2_alg».proof.Proof.Gen.ReferenceIdeal.Read
import proofs.«112397_j12412455486167_2_alg».proof.Proof.Gen.Pre_finite_inputs
import proofs.«112397_j12412455486167_2_alg».proof.Proof.KernelRun
import proofs.«112397_j12412455486167_2_alg».proof.Proof.KernelValue
import proofs.«112397_j12412455486167_2_alg».proof.Proof.Finite
import proofs.«112397_j12412455486167_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the kernel's launch arrays: the kernel's by its
    closed forms and the bridge (which uses that the float inputs are finite), the reference's by its run and the agreement
    of the two launch memories on the arguments. -/
theorem algebraic : Cert.algebraic_KernelIdeal_ReferenceIdeal := by
  intro m ρ m' ρ' hpre hagree
  refine ⟨fun c => Cert.ReferenceIdeal.Read.val_main_v70 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Whole.run_result (F := Ideal) m ρ)
    obtain ⟨h0, h3, h4, h5, h6⟩ := Cert.Pre_finite_inputs.Decode.finite_entries _ _ _ _ _ _ _ (hpre c)
    exact (Cert.KernelIdeal.Whole.result_eq m ρ c).trans (Cert.Bridge.whole_eq _ _ _ _ _ _ _ h0 h3 h4 h5)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v70_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
